-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x256 .f32) (main_arg1 : IVec S1600000 32) (main_arg2 : IVec S1600000 32) (main_arg3 : FVec F S256x128 .f32) (main_arg4 : FVec F S128 .f32) (main_arg5 : FVec F S128x40 .f32) (main_arg6 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg5
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg6 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1x40 : Shape := ⟨2, ![1, 40]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S1600000x128 : Shape := ⟨2, ![1600000, 128]⟩
abbrev S100000x40 : Shape := ⟨2, ![100000, 40]⟩
abbrev S5000x40 : Shape := ⟨2, ![5000, 40]⟩
abbrev S1600000x40 : Shape := ⟨2, ![1600000, 40]⟩

abbrev nBuf : Space → Nat
  | .hbm => 67
  | .vmem => 15
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x1, .f32⟩
  | .hbm, ⟨29, _⟩ => ⟨S1x128, .f32⟩
  | .hbm, ⟨30, _⟩ => ⟨S1x40, .f32⟩
  | .hbm, ⟨31, _⟩ => ⟨S100000x128, .bf16⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .bf16⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x40, .bf16⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x40, .bf16⟩
  | .hbm, ⟨58, _⟩ => ⟨S1600000x40, .f32⟩
  | .hbm, ⟨59, _⟩ => ⟨S_, .f32⟩
  | .hbm, ⟨60, _⟩ => ⟨S100000x40, .f32⟩
  | .hbm, ⟨61, _⟩ => ⟨S1600000x1, .i32⟩
  | .hbm, ⟨62, _⟩ => ⟨S100000x40, .f32⟩
  | .hbm, ⟨63, _⟩ => ⟨S100000x40, .f32⟩
  | .hbm, ⟨64, _⟩ => ⟨S100000x40, .f32⟩
  | .hbm, ⟨65, _⟩ => ⟨S100000x40, .f32⟩
  | .hbm, ⟨66, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S128x40, .f32⟩
  | .local _ .vmem, ⟨11, _⟩ => ⟨S5000x1, .f32⟩
  | .local _ .vmem, ⟨12, _⟩ => ⟨S5000x1, .f32⟩
  | .local _ .vmem, ⟨13, _⟩ => ⟨S5000x40, .bf16⟩
  | .local _ .vmem, ⟨14, _⟩ => ⟨S5000x40, .bf16⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x40 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  shapeCasts_S40_S1x40 : S40.ShapeCasts S1x40
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  packedbf16_S5000x40_S5000x40_0_0 : (Rect.unit (s := S5000x40) ![0, 0] S5000x40.size inb_S5000x40_S5000x40_0_0).PackedRows (EltTy.packing .bf16)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x40.size a ≤ S100000x40.size a
  hwx1_4 : ∀ i : grid1.Coords, EltTy.bits .bf16 = 32 ∨ (Rect.block (s := S100000x40) S5000x40.size (cc1_transform_4 i) (hinb1_4 i)).WholeWords (EltTy.packing .bf16)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S100000x1 : Shape := ⟨2, ![100000, 1]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 76
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x128, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S100000x40, .f32⟩
  | .hbm, ⟨54, _⟩ => ⟨S100000x1, .f32⟩
  | .hbm, ⟨55, _⟩ => ⟨S100000x40, .f32⟩
  | .hbm, ⟨56, _⟩ => ⟨S100000x40, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x40, .f32⟩
  | .hbm, ⟨66, _⟩ => ⟨S_, .f32⟩
  | .hbm, ⟨67, _⟩ => ⟨S100000x40, .f32⟩
  | .hbm, ⟨68, _⟩ => ⟨S1600000x1, .i32⟩
  | .hbm, ⟨69, _⟩ => ⟨S100000x40, .f32⟩
  | .hbm, ⟨70, _⟩ => ⟨S100000x1, .f32⟩
  | .hbm, ⟨71, _⟩ => ⟨S100000x40, .f32⟩
  | .hbm, ⟨72, _⟩ => ⟨S100000x40, .f32⟩
  | .hbm, ⟨73, _⟩ => ⟨S1x40, .f32⟩
  | .hbm, ⟨74, _⟩ => ⟨S100000x40, .f32⟩
  | .hbm, ⟨75, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x1_S100000x40_0_1 : S100000x1.BroadcastsInDim S100000x40 (![0, 1] : Fin 2 → Fin S100000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The idealized kernel's run with its result named.

  The program is host operations, a first launch, host operations, a second launch, host operations. Its generated
  frame follows the contents of every buffer through that chain: from the launch memory through the first five
  stretches of host operations, with the first launch's arrays replaced by what its write-backs leave, through
  the next stretch, the second launch likewise, and the last stretch. The frame states only that the arguments
  end as launched; the same run also leaves the result buffer at the chain's final contents, which is what is
  stated here, for the value proof to read.
-/
import proofs.«173235_j30992484008171_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's
    contents and the arguments as launched. -/
theorem run_main : θ_run defs (onTc (τ := τ) (main (F := F))) ⟨m, fun _ => 0, ρ⟩ (fun r => ∀ c : Dev nD,
      r.2.mem ((c.tc : Thread nD τ).loc main_v44) = W9 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v44 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Run

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibDotNN.lean ====
/-
  A reusable lemma: a host matrix product read at an entry.

  A `dot_general` of an [M, K] operand by a [K, N] operand — contracting axis 1 of the left with axis 0 of the right, no
  batch axes — read over the extended reals at the output entry (p, q) is the inner product of row p of the left operand
  with column q of the right one:  (L · R)[p, q] = Σ_{k < K} L[p, k] · R[k, q].
  Generic in the extents M, K, N and in the operands' float formats; the dimension record may be any one that equals the
  plain M×K by K×N record (a printed program's own record does, by unfolding).
-/
import proofs.«173235_j30992484008171_2_alg».proof.Proof.LibMatmulNN
import Idealize.ShloMosaic.PureOps.Ideal.Laws
import Idealize.ShloMosaic.Lib.ValueIdx

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    Host.dotGeneral D prec lhs rhs (ix2 p q) = ∑ k : Fin K, lhs (ix2 p k) * rhs (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [MatmulNN.lhsIdx_plain, MatmulNN.rhsIdx_plain]

end Cert.DotNN

end
-- ==== Proof.LibBroadcastRows.lean ====
/-
  Reusable lemmas: how a host program repeats a vector down the rows of a matrix, read at an entry.

  jnp broadcasts a vector [b] against a matrix [M, b] in two steps: the vector viewed as one row, [b] -> [1, b]
  (`broadcast_in_dim` with dims [1]), and that row repeated down the M rows, [1, b] -> [M, b] (dims [0, 1]).
  At (p, c) the result is the vector's entry c, whatever the row p. Generic in M, b and in the element type.
-/
import Idealize.ShloMosaic.Lib.Pipeline.Value
import Idealize.ShloMosaic.Lib.ValueIdx

noncomputable section

namespace Cert.BroadcastRows

open Idealize.ShloMosaic Idealize.ShloMosaic.ValueIdx

variable {α : Type} {M b : ℕ}

/-- One row repeated down M rows reads, at (p, c), the row's entry c. -/
theorem row_apply (v : (⟨2, ![1, b]⟩ : Shape).Idx → α)
    (h : (⟨2, ![1, b]⟩ : Shape).BroadcastsInDim ⟨2, ![M, b]⟩ ![0, 1]) (p : Fin M) (c : Fin b) :
    broadcastInDim ⟨2, ![M, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector viewed as one row reads, at (u, c), the vector's entry c. -/
theorem unit_apply (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end Cert.BroadcastRows

end
-- ==== Proof.LibHostBroadcasts.lean ====
/-
  Reusable lemmas: how a host program spreads a scalar, a vector or a column over a larger array, read at an entry.

  jnp lowers broadcasting to `broadcast_in_dim` with an explicit map from the operand's axes to the result's:
    a scalar [] to any shape (no axes mapped):      every entry is the scalar;
    a vector [T] to a column [T, 1] (dims [0]):     entry (e, u) is the vector's entry e;
    a column [T, 1] to a matrix [T, C] (dims [0,1]): entry (e, c) is the column's entry (e, 0).
  Generic in the extents and in the element type.
-/
import Idealize.ShloMosaic.Lib.Pipeline.Value
import Idealize.ShloMosaic.Lib.ValueIdx

noncomputable section

namespace Cert.HostBroadcasts

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector viewed as a column reads, at (e, u), the vector's entry e. -/
theorem col_apply {T : ℕ} (v : (⟨1, ![T]⟩ : Shape).Idx → α)
    (h : (⟨1, ![T]⟩ : Shape).BroadcastsInDim ⟨2, ![T, 1]⟩ ![0]) (e : Fin T) (u : Fin 1) :
    broadcastInDim ⟨2, ![T, 1]⟩ ![0] h v (ix2 e u) = v (ix1 e) := by
  refine broadcastInDim_apply ![0] h v (ix2 e u) (ix1 e) fun ax => ?_
  match ax with
  | ⟨0, _⟩ =>
    show e.val = if T = 1 then 0 else e.val
    split
    · have := e.isLt; omega
    · rfl

/-- A column repeated along the rows' entries reads, at (e, c), the column's entry (e, 0). -/
theorem col_rows_apply {T C : ℕ} (v : (⟨2, ![T, 1]⟩ : Shape).Idx → α)
    (h : (⟨2, ![T, 1]⟩ : Shape).BroadcastsInDim ⟨2, ![T, C]⟩ ![0, 1]) (e : Fin T) (c : Fin C) :
    broadcastInDim ⟨2, ![T, C]⟩ ![0, 1] h v (ix2 e c) = v (ix2 e (0 : Fin 1)) := by
  refine broadcastInDim_apply ![0, 1] h v (ix2 e c) (ix2 e (0 : Fin 1)) fun ax => ?_
  match ax with
  | ⟨0, _⟩ =>
    show e.val = if T = 1 then 0 else e.val
    split
    · have := e.isLt; omega
    · rfl
  | ⟨1, _⟩ => rfl

end Cert.HostBroadcasts

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.LibGraphLayerEntries.lean ====
/-
  Reusable lemmas: the two dense steps of a graph-convolution layer, read at an entry over the extended reals.

  A layer takes node features h : [n, K], a weight w : [K, N], a bias b : [N] and two per-node scalings kept as
  columns [n, 1]. It has two dense steps, between which rows are moved along edges:

    scaled product   S[r, q] = (Σ_{k < K} h[r, k] · w[k, q]) · s[r, 0]
    closing step     out[r, q] = max (a[r, q] · d[r, 0] + b[q], 0)

  Each step is computed twice in this certificate: once on a block of M rows inside a kernel (a matrix product on
  the matrix unit after a change of float format, which is the identity over the extended reals; columns and rows
  spread by vector broadcasts), and once on the whole array by host operations (a dot_general; columns and rows
  spread by broadcast_in_dim). This module reads all four forms at an entry (p, q) and finds the two displayed
  formulas: the block form and the whole-array form of a step differ only in which rows they are handed.
  Everything is generic in the extents.
-/
import proofs.«173235_j30992484008171_2_alg».proof.Proof.LibMatmulNN
import proofs.«173235_j30992484008171_2_alg».proof.Proof.LibDotNN
import proofs.«173235_j30992484008171_2_alg».proof.Proof.LibBroadcastRows
import proofs.«173235_j30992484008171_2_alg».proof.Proof.LibHostBroadcasts
import proofs.«173235_j30992484008171_2_alg».proof.Proof.LibKeepdimsColumn
import Idealize.ShloMosaic.Lib.ValueLayout
import Idealize.ShloMosaic.Lib.Pipeline.Value
import Idealize.ShloMosaic.Lib.ValueIdx
import Idealize.ShloMosaic.PureOps.Ideal.Laws

noncomputable section

namespace Cert.GraphLayer

open Idealize.ShloMosaic Idealize.ShloMosaic.ValueIdx

variable {M K N : ℕ}

/-! ## The scaled product -/

/-- On a block, in the kernel's spelling: both operands change float format (the identity here), are multiplied on
    the matrix unit into zeros, and the product is scaled by the column spread along the rows' entries. -/
theorem block_scaled_entry (D : DotDims ⟨2, ![M, K]⟩ ⟨2, ![K, N]⟩ ⟨2, ![M, N]⟩) (hD : D = DotDims.plain M K N)
    (hx : FTy.bf16.bits < FTy.f32.bits) (hw : FTy.bf16.bits < FTy.f32.bits)
    (hc : (⟨2, ![M, 1]⟩ : Shape).ShapeCasts ⟨2, ![M, 1]⟩) (hb : (⟨2, ![M, 1]⟩ : Shape).Broadcasts ⟨2, ![M, N]⟩)
    (x : FVec Ideal ⟨2, ![M, K]⟩ .f32) (w : FVec Ideal ⟨2, ![K, N]⟩ .f32) (s : FVec Ideal ⟨2, ![M, 1]⟩ .f32)
    (p : Fin M) (q : Fin N) :
    mulf (matmul D none (truncf .bf16 x hx) (truncf .bf16 w hw) (constant (F := Ideal) ⟨2, ![M, N]⟩ .f32 0x00000000#32))
        (broadcastTo ⟨2, ![M, N]⟩ (shapeCast ⟨2, ![M, 1]⟩ s hc) hb) (ix2 p q)
      = (∑ k : Fin K, x (ix2 p k) * w (ix2 k q)) * s (ix2 p (0 : Fin 1)) := by
  rw [mulf_apply, KeepdimsColumn.broadcastTo_a1_ab_apply, shapeCast_self]
  refine congrArg (· * s (ix2 p (0 : Fin 1))) ?_
  exact MatmulNN.matmul_zero_apply D hD none (truncf .bf16 x hx) (truncf .bf16 w hw) p q

/-- The same when the block of features first passes through a cast to its own shape (the identity). -/
theorem block_scaled_entry_cast (D : DotDims ⟨2, ![M, K]⟩ ⟨2, ![K, N]⟩ ⟨2, ![M, N]⟩) (hD : D = DotDims.plain M K N)
    (hx : FTy.bf16.bits < FTy.f32.bits) (hw : FTy.bf16.bits < FTy.f32.bits)
    (hcx : (⟨2, ![M, K]⟩ : Shape).ShapeCasts ⟨2, ![M, K]⟩)
    (hc : (⟨2, ![M, 1]⟩ : Shape).ShapeCasts ⟨2, ![M, 1]⟩) (hb : (⟨2, ![M, 1]⟩ : Shape).Broadcasts ⟨2, ![M, N]⟩)
    (x : FVec Ideal ⟨2, ![M, K]⟩ .f32) (w : FVec Ideal ⟨2, ![K, N]⟩ .f32) (s : FVec Ideal ⟨2, ![M, 1]⟩ .f32)
    (p : Fin M) (q : Fin N) :
    mulf (matmul D none (truncf .bf16 (shapeCast ⟨2, ![M, K]⟩ x hcx) hx) (truncf .bf16 w hw)
          (constant (F := Ideal) ⟨2, ![M, N]⟩ .f32 0x00000000#32))
        (broadcastTo ⟨2, ![M, N]⟩ (shapeCast ⟨2, ![M, 1]⟩ s hc) hb) (ix2 p q)
      = (∑ k : Fin K, x (ix2 p k) * w (ix2 k q)) * s (ix2 p (0 : Fin 1)) := by
  rw [shapeCast_self]
  exact block_scaled_entry D hD hx hw hc hb x w s p q

/-- On the whole array, in the host's spelling: a dot_general, scaled by the column spread by broadcast_in_dim. -/
theorem host_scaled_entry (D : DotDims ⟨2, ![M, K]⟩ ⟨2, ![K, N]⟩ ⟨2, ![M, N]⟩) (hD : D = DotDims.plain M K N)
    (hb : (⟨2, ![M, 1]⟩ : Shape).BroadcastsInDim ⟨2, ![M, N]⟩ ![0, 1])
    (x : FVec Ideal ⟨2, ![M, K]⟩ .f32) (w : FVec Ideal ⟨2, ![K, N]⟩ .f32) (s : FVec Ideal ⟨2, ![M, 1]⟩ .f32)
    (r : Fin M) (q : Fin N) :
    mulf (Host.dotGeneral D none x w) (broadcastInDim ⟨2, ![M, N]⟩ ![0, 1] hb s) (ix2 r q)
      = (∑ k : Fin K, x (ix2 r k) * w (ix2 k q)) * s (ix2 r (0 : Fin 1)) := by
  rw [mulf_apply, HostBroadcasts.col_rows_apply]
  refine congrArg (· * s (ix2 r (0 : Fin 1))) ?_
  exact DotNN.dotGeneral_apply D hD none x w r q

/-! ## The closing step -/

/-- On a block, in the kernel's spelling: the column and the bias row are spread by vector broadcasts, and the
    clamp is a maximum with the zero splat. -/
theorem block_closing_entry (ha : (⟨2, ![M, N]⟩ : Shape).ShapeCasts ⟨2, ![M, N]⟩)
    (hd : (⟨2, ![M, 1]⟩ : Shape).ShapeCasts ⟨2, ![M, 1]⟩) (hr : (⟨2, ![1, N]⟩ : Shape).ShapeCasts ⟨2, ![1, N]⟩)
    (hbd : (⟨2, ![M, 1]⟩ : Shape).Broadcasts ⟨2, ![M, N]⟩) (hbr : (⟨2, ![1, N]⟩ : Shape).Broadcasts ⟨2, ![M, N]⟩)
    (a : FVec Ideal ⟨2, ![M, N]⟩ .f32) (d : FVec Ideal ⟨2, ![M, 1]⟩ .f32) (b : FVec Ideal ⟨2, ![1, N]⟩ .f32)
    (p : Fin M) (q : Fin N) :
    maximumf (addf (mulf (shapeCast ⟨2, ![M, N]⟩ a ha) (broadcastTo ⟨2, ![M, N]⟩ (shapeCast ⟨2, ![M, 1]⟩ d hd) hbd))
          (broadcastTo ⟨2, ![M, N]⟩ (shapeCast ⟨2, ![1, N]⟩ b hr) hbr))
        (broadcast ⟨2, ![M, N]⟩ (Scalar.ofBits (F := Ideal) .f32 0x00000000#32)) (ix2 p q)
      = max (a (ix2 p q) * d (ix2 p (0 : Fin 1)) + b (ix2 (0 : Fin 1) q)) (Ideal.ofBits .f32 0x00000000#32) := by
  rw [maximumf_apply, addf_apply, mulf_apply, broadcast_apply, KeepdimsColumn.broadcastTo_a1_ab_apply,
    broadcastTo_1b_ab_apply, shapeCast_self, shapeCast_self, shapeCast_self]
  rfl

/-- On the whole array, in the host's spelling: the bias is first viewed as one row, then repeated down the rows;
    the clamp is a maximum with zero spread from a scalar. -/
theorem host_closing_entry (hd : (⟨2, ![M, 1]⟩ : Shape).BroadcastsInDim ⟨2, ![M, N]⟩ ![0, 1])
    (hrow : (⟨2, ![1, N]⟩ : Shape).BroadcastsInDim ⟨2, ![M, N]⟩ ![0, 1])
    (hvec : (⟨1, ![N]⟩ : Shape).BroadcastsInDim ⟨2, ![1, N]⟩ ![1])
    (dims : Fin 0 → Fin 2) (hz : (⟨0, ![]⟩ : Shape).BroadcastsInDim ⟨2, ![M, N]⟩ dims)
    (a : FVec Ideal ⟨2, ![M, N]⟩ .f32) (d : FVec Ideal ⟨2, ![M, 1]⟩ .f32) (b : FVec Ideal ⟨1, ![N]⟩ .f32)
    (r : Fin M) (q : Fin N) :
    maximumf (addf (mulf a (broadcastInDim ⟨2, ![M, N]⟩ ![0, 1] hd d))
          (broadcastInDim ⟨2, ![M, N]⟩ ![0, 1] hrow (broadcastInDim ⟨2, ![1, N]⟩ ![1] hvec b)))
        (broadcastInDim ⟨2, ![M, N]⟩ dims hz (constant (F := Ideal) ⟨0, ![]⟩ .f32 0x00000000#32)) (ix2 r q)
      = max (a (ix2 r q) * d (ix2 r (0 : Fin 1)) + b (ix1 q)) (Ideal.ofBits .f32 0x00000000#32) := by
  rw [maximumf_apply, addf_apply, mulf_apply, HostBroadcasts.col_rows_apply, BroadcastRows.row_apply,
    BroadcastRows.unit_apply, HostBroadcasts.scalar_apply, constant_apply]

/-- The host's view of a bias vector as one row, [N] to [1, N] by a reshape, reads the vector's entry. -/
theorem bias_row_entry (h : (⟨1, ![N]⟩ : Shape).ShapeCasts ⟨2, ![1, N]⟩) (b : FVec Ideal ⟨1, ![N]⟩ .f32) (q : Fin N) :
    shapeCast ⟨2, ![1, N]⟩ b h (ix2 (0 : Fin 1) q) = b (ix1 q) :=
  shapeCast_a_1a_apply b h (0 : Fin 1) q

end Cert.GraphLayer

end
-- ==== Proof.DenseSteps.lean ====
/-
  The two dense steps of the network as functions of whole arrays, and their spelling by host operations.

  A graph-convolution layer multiplies every node's feature row by a weight matrix and scales row r by a per-node
  number kept as a column:

      scaledProduct x w s [r, q] = (Σ_k x[r, k] · w[k, q]) · s[r, 0].

  Between the two layers a bias row is added to every row and the result is clamped below at zero:

      biasedClamp a b [r, q] = max (a[r, q] + b[0, q], 0).

  Both are stated entry by entry over the extended reals. The host program computes the first as a dot_general
  followed by a product with the column spread along the rows, and the second as a sum with the bias row repeated
  down the rows followed by a maximum with a zero spread from a scalar: those are the same functions. A length-n
  vector viewed as a column [n, 1] (or as a row [1, n]) is the same array whether it is made by a reshape or by a
  broadcast that inserts the unit axis.
-/
import proofs.«173235_j30992484008171_2_alg».proof.Proof.LibGraphLayerEntries

noncomputable section

namespace Cert.DenseSteps

open Idealize.ShloMosaic Idealize.ShloMosaic.ValueIdx

variable {n K N : ℕ}

/-- Every row of `x` times `w`, row r scaled by the column's entry s[r, 0]. -/
def scaledProduct (x : FVec Ideal ⟨2, ![n, K]⟩ .f32) (w : FVec Ideal ⟨2, ![K, N]⟩ .f32)
    (s : FVec Ideal ⟨2, ![n, 1]⟩ .f32) : FVec Ideal ⟨2, ![n, N]⟩ .f32 :=
  fun i => (∑ k : Fin K, x (ix2 (i 0) k) * w (ix2 k (i 1))) * s (ix2 (i 0) (0 : Fin 1))

/-- The bias row added to every row, clamped below at zero. -/
def biasedClamp (a : FVec Ideal ⟨2, ![n, K]⟩ .f32) (b : FVec Ideal ⟨2, ![1, K]⟩ .f32) :
    FVec Ideal ⟨2, ![n, K]⟩ .f32 :=
  fun i => max (a (ix2 (i 0) (i 1)) + b (ix2 (0 : Fin 1) (i 1))) (Ideal.ofBits .f32 0x00000000#32)

theorem scaledProduct_apply (x : FVec Ideal ⟨2, ![n, K]⟩ .f32) (w : FVec Ideal ⟨2, ![K, N]⟩ .f32)
    (s : FVec Ideal ⟨2, ![n, 1]⟩ .f32) (r : Fin n) (q : Fin N) :
    scaledProduct x w s (ix2 r q) = (∑ k : Fin K, x (ix2 r k) * w (ix2 k q)) * s (ix2 r (0 : Fin 1)) := rfl

theorem biasedClamp_apply (a : FVec Ideal ⟨2, ![n, K]⟩ .f32) (b : FVec Ideal ⟨2, ![1, K]⟩ .f32) (r : Fin n) (k : Fin K) :
    biasedClamp a b (ix2 r k) = max (a (ix2 r k) + b (ix2 (0 : Fin 1) k)) (Ideal.ofBits .f32 0x00000000#32) := rfl

/-- The host's dot_general times the column spread along the rows is the scaled product. -/
theorem host_scaledProduct (D : DotDims ⟨2, ![n, K]⟩ ⟨2, ![K, N]⟩ ⟨2, ![n, N]⟩) (hD : D = DotDims.plain n K N)
    (hb : (⟨2, ![n, 1]⟩ : Shape).BroadcastsInDim ⟨2, ![n, N]⟩ ![0, 1])
    (x : FVec Ideal ⟨2, ![n, K]⟩ .f32) (w : FVec Ideal ⟨2, ![K, N]⟩ .f32) (s : FVec Ideal ⟨2, ![n, 1]⟩ .f32) :
    mulf (Host.dotGeneral D none x w) (broadcastInDim ⟨2, ![n, N]⟩ ![0, 1] hb s) = scaledProduct x w s := by
  funext i
  obtain ⟨r, q, rfl⟩ : ∃ (r : Fin n) (q : Fin N), i = ix2 r q := ⟨i 0, i 1, eq_ix2 i⟩
  exact GraphLayer.host_scaled_entry D hD hb x w s r q

/-- The host's sum with the bias row repeated down the rows, then the maximum with a spread zero, is the
    biased clamp. -/
theorem host_biasedClamp (hrow : (⟨2, ![1, K]⟩ : Shape).BroadcastsInDim ⟨2, ![n, K]⟩ ![0, 1])
    (dims : Fin 0 → Fin 2) (hz : (⟨0, ![]⟩ : Shape).BroadcastsInDim ⟨2, ![n, K]⟩ dims)
    (a : FVec Ideal ⟨2, ![n, K]⟩ .f32) (b : FVec Ideal ⟨2, ![1, K]⟩ .f32) :
    maximumf (addf a (broadcastInDim ⟨2, ![n, K]⟩ ![0, 1] hrow b))
        (broadcastInDim ⟨2, ![n, K]⟩ dims hz (constant (F := Ideal) ⟨0, ![]⟩ .f32 0x00000000#32))
      = biasedClamp a b := by
  funext i
  obtain ⟨r, k, rfl⟩ : ∃ (r : Fin n) (k : Fin K), i = ix2 r k := ⟨i 0, i 1, eq_ix2 i⟩
  rw [maximumf_apply, addf_apply, BroadcastRows.row_apply, HostBroadcasts.scalar_apply, constant_apply]
  rfl

/-- A vector made a column by a reshape is the vector made a column by a broadcast. -/
theorem column_reshape_eq_broadcast {α : Type} (h1 : (⟨1, ![n]⟩ : Shape).ShapeCasts ⟨2, ![n, 1]⟩)
    (h2 : (⟨1, ![n]⟩ : Shape).BroadcastsInDim ⟨2, ![n, 1]⟩ ![0]) (v : (⟨1, ![n]⟩ : Shape).Idx → α) :
    shapeCast ⟨2, ![n, 1]⟩ v h1 = broadcastInDim ⟨2, ![n, 1]⟩ ![0] h2 v := by
  funext i
  obtain ⟨e, u, rfl⟩ : ∃ (e : Fin n) (u : Fin 1), i = ix2 e u := ⟨i 0, i 1, eq_ix2 i⟩
  rw [KeepdimsColumn.shapeCast_a_a1_apply, HostBroadcasts.col_apply]

/-- A vector made a row by a reshape is the vector made a row by a broadcast. -/
theorem row_reshape_eq_broadcast {α : Type} (h1 : (⟨1, ![N]⟩ : Shape).ShapeCasts ⟨2, ![1, N]⟩)
    (h2 : (⟨1, ![N]⟩ : Shape).BroadcastsInDim ⟨2, ![1, N]⟩ ![1]) (v : (⟨1, ![N]⟩ : Shape).Idx → α) :
    shapeCast ⟨2, ![1, N]⟩ v h1 = broadcastInDim ⟨2, ![1, N]⟩ ![1] h2 v := by
  funext i
  obtain ⟨u, q, rfl⟩ : ∃ (u : Fin 1) (q : Fin N), i = ix2 u q := ⟨i 0, i 1, eq_ix2 i⟩
  rw [shapeCast_a_1a_apply, BroadcastRows.unit_apply]

/-! ## The same two steps on a block of rows, in a kernel body's spelling -/

/-- A kernel body's product on the matrix unit of a block (after a change of float format, the identity here), scaled
    by the block of the column spread by a vector broadcast, stored after another change of format: at (p, q) it
    is the scaled product of the block's rows. -/
theorem block_scaledProduct {M : ℕ} (D : DotDims ⟨2, ![M, K]⟩ ⟨2, ![K, N]⟩ ⟨2, ![M, N]⟩) (hD : D = DotDims.plain M K N)
    (hx : FTy.bf16.bits < FTy.f32.bits)
    (hc : (⟨2, ![M, 1]⟩ : Shape).ShapeCasts ⟨2, ![M, 1]⟩) (hb : (⟨2, ![M, 1]⟩ : Shape).Broadcasts ⟨2, ![M, N]⟩)
    (x : FVec Ideal ⟨2, ![M, K]⟩ .f32) (w : FVec Ideal ⟨2, ![K, N]⟩ .f32) (s : FVec Ideal ⟨2, ![M, 1]⟩ .f32)
    (p : Fin M) (q : Fin N) :
    (truncf .bf16 (mulf (matmul D none (truncf .bf16 x hx) (truncf .bf16 w hx)
          (constant (F := Ideal) ⟨2, ![M, N]⟩ .f32 0x00000000#32))
        (broadcastTo ⟨2, ![M, N]⟩ (shapeCast ⟨2, ![M, 1]⟩ s hc) hb)) hx : FVec Ideal ⟨2, ![M, N]⟩ .bf16) (ix2 p q)
      = (∑ k : Fin K, x (ix2 p k) * w (ix2 k q)) * s (ix2 p (0 : Fin 1)) :=
  (truncf_apply _ hx (ix2 p q)).trans (GraphLayer.block_scaled_entry D hD hx hx hc hb x w s p q)

/-- A kernel body's bias row spread by a vector broadcast, added, and clamped by a maximum with the zero splat: at
    (p, k) the biased clamp of the block's rows. -/
theorem block_biasedClamp {M : ℕ} (ha : (⟨2, ![M, K]⟩ : Shape).ShapeCasts ⟨2, ![M, K]⟩)
    (hr : (⟨2, ![1, K]⟩ : Shape).ShapeCasts ⟨2, ![1, K]⟩) (hbr : (⟨2, ![1, K]⟩ : Shape).Broadcasts ⟨2, ![M, K]⟩)
    (a : FVec Ideal ⟨2, ![M, K]⟩ .f32) (b : FVec Ideal ⟨2, ![1, K]⟩ .f32) (p : Fin M) (k : Fin K) :
    maximumf (addf (shapeCast ⟨2, ![M, K]⟩ a ha) (broadcastTo ⟨2, ![M, K]⟩ (shapeCast ⟨2, ![1, K]⟩ b hr) hbr))
        (broadcast ⟨2, ![M, K]⟩ (Scalar.ofBits (F := Ideal) .f32 0x00000000#32)) (ix2 p k)
      = max (a (ix2 p k) + b (ix2 (0 : Fin 1) k)) (Ideal.ofBits .f32 0x00000000#32) := by
  rw [maximumf_apply, addf_apply, broadcast_apply, broadcastTo_1b_ab_apply, shapeCast_self, shapeCast_self]
  rfl

end Cert.DenseSteps

end
-- ==== Proof.RefLayers.lean ====
/-
  The reference's result, read in layers.

  The reference computes, from the features X, the edge lists (src, dst), and the weights and biases of two layers:
  the degree scalings  s = 1/sqrt(max(1, #edges leaving a node))  and  d = 1/sqrt(max(1, #edges entering it));
  the hidden features  H = max(hop((X·W1)·s)·d + b1, 0);  and the output  hop((H·W2)·s)·d + b2,  where
  hop carries every edge's source row to its destination and sums the rows arriving there (negative source
  indices counted from the end, as jnp indexing does). The generated run states the result as one long term of the
  arguments; here the same term is cut at those layers, by unfolding.
-/
import proofs.«173235_j30992484008171_2_alg».proof.Proof.Gen.ReferenceIdeal.Run
import proofs.«173235_j30992484008171_2_alg».proof.Proof.DenseSteps

set_option maxRecDepth 8192

noncomputable section

namespace Cert.ReferenceIdeal.Layers

open Cert.ReferenceIdeal Cert.ReferenceIdeal.Gen Idealize.ShloMosaic Idealize.ShloMosaic.TcCoe Idealize.SL.Sem

/-- One end of every edge: 1,600,000 node indices. -/
abbrev Ends : Type := (⟨S1600000, .i32⟩ : BufTy).Contents (Elt Ideal)

/-- Per node, one over the square root of the number of edges with that end, the count taken at least one. -/
def degreeScale (ends : Ends) : FVec Ideal S100000 .f32 :=
  Host.rsqrt (maximumf (broadcastInDim S100000 ![] bcast_S_S100000 (id (constant (F := Ideal) S_ .f32 0x3F800000#32)))
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 ends)
      (broadcastInDim S1600000 ![] bcast_S_S1600000 (constant (F := Ideal) S_ .f32 0x3F800000#32))))

/-- The degree scaling kept as a column. -/
def scaleColumn (ends : Ends) : FVec Ideal S100000x1 .f32 :=
  broadcastInDim S100000x1 ![0] bcast_S100000_S100000x1_0 (degreeScale ends)

/-- The source indices as a column, a negative index counted from the end. -/
def sourceColumn (src : Ends) : (⟨S1600000x1, .i32⟩ : BufTy).Contents (Elt Ideal) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- One hop over the edges, 128 features wide: every edge carries its source's row to its destination, and the
    rows arriving at a node are added. -/
def hop128 (x : FVec Ideal S100000x128 .f32) (src dst : Ends) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x (sourceColumn src))

/-- The same hop, 40 features wide. -/
def hop40 (x : FVec Ideal S100000x40 .f32) (src dst : Ends) : FVec Ideal S100000x40 .f32 :=
  Host.scatterAdd scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 dst)
    (Host.gather gather_S100000x40_S1600000x1_S1600000x40_1_0_n_n_0_1_140 x (sourceColumn src))

/-- The first bias as one row. -/
def biasRow128 (b1 : FVec Ideal S128 .f32) : FVec Ideal S1x128 .f32 := broadcastInDim S1x128 ![1] bcast_S128_S1x128_1 b1

/-- The second bias as one row. -/
def biasRow40 (b2 : FVec Ideal S40 .f32) : FVec Ideal S1x40 .f32 := broadcastInDim S1x40 ![1] bcast_S40_S1x40_1 b2

/-- The first layer's features before the hop: X·W1, row r scaled by s[r]. -/
def firstProduct (x : FVec Ideal S100000x256 .f32) (src : Ends) (w1 : FVec Ideal S256x128 .f32) : FVec Ideal S100000x128 .f32 :=
  mulf (Host.dotGeneral dot_S100000x256_S256x128_S100000x128_1_0_0_1_n_n none x w1)
    (broadcastInDim S100000x128 ![0, 1] bcast_S100000x1_S100000x128_0_1 (scaleColumn src))

/-- The first layer after the hop, row r scaled by d[r]. -/
def firstAggregate (x : FVec Ideal S100000x256 .f32) (src dst : Ends) (w1 : FVec Ideal S256x128 .f32) : FVec Ideal S100000x128 .f32 :=
  mulf (hop128 (firstProduct x src w1) src dst)
    (broadcastInDim S100000x128 ![0, 1] bcast_S100000x1_S100000x128_0_1 (scaleColumn dst))

/-- The hidden features: the first aggregate plus the bias, clamped below at zero. -/
def hidden (x : FVec Ideal S100000x256 .f32) (src dst : Ends) (w1 : FVec Ideal S256x128 .f32) (b1 : FVec Ideal S128 .f32) :
    FVec Ideal S100000x128 .f32 :=
  maximumf (addf (firstAggregate x src dst w1)
      (broadcastInDim S100000x128 ![0, 1] bcast_S1x128_S100000x128_0_1 (biasRow128 b1)))
    (broadcastInDim S100000x128 ![] bcast_S_S100000x128 (constant (F := Ideal) S_ .f32 0x00000000#32))

/-- The second layer's features before the hop: H·W2, row r scaled by s[r]. -/
def secondProduct (h : FVec Ideal S100000x128 .f32) (src : Ends) (w2 : FVec Ideal S128x40 .f32) : FVec Ideal S100000x40 .f32 :=
  mulf (Host.dotGeneral dot_S100000x128_S128x40_S100000x40_1_0_0_1_n_n none h w2)
    (broadcastInDim S100000x40 ![0, 1] bcast_S100000x1_S100000x40_0_1 (scaleColumn src))

/-- The output from the second layer's features: the hop, row r scaled by d[r], plus the bias. -/
def closing (p : FVec Ideal S100000x40 .f32) (src dst : Ends) (b2 : FVec Ideal S40 .f32) : FVec Ideal S100000x40 .f32 :=
  addf (mulf (hop40 p src dst) (broadcastInDim S100000x40 ![0, 1] bcast_S100000x1_S100000x40_0_1 (scaleColumn dst)))
    (broadcastInDim S100000x40 ![0, 1] bcast_S1x40_S100000x40_0_1 (biasRow40 b2))

/-- The network's output. -/
def output (x : FVec Ideal S100000x256 .f32) (src dst : Ends) (w1 : FVec Ideal S256x128 .f32) (b1 : FVec Ideal S128 .f32)
    (w2 : FVec Ideal S128x40 .f32) (b2 : FVec Ideal S40 .f32) : FVec Ideal S100000x40 .f32 :=
  closing (secondProduct (hidden x src dst w1 b1) src w2) src dst b2

/-- The generated run's result term is `output` of the arguments. -/
theorem result_eq (m : (ℓ : Loc nD τ sig) → Buf (Elt Ideal) ℓ) (c : Dev nD) :
    Value.res_main_v51 (F := Ideal) m c
      = output (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold Value.res_main_v51 output closing secondProduct hidden firstAggregate firstProduct biasRow40 biasRow128 hop40 hop128
    sourceColumn scaleColumn degreeScale
  rfl

/-! ## The layers' dense steps as whole-array functions -/

/-- A degree scaling made a column by a reshape is the scaling column. -/
theorem reshape_scale (h : S100000.ShapeCasts S100000x1) (ends : Ends) :
    shapeCast S100000x1 (degreeScale ends) h = scaleColumn ends :=
  DenseSteps.column_reshape_eq_broadcast (n := 100000) h bcast_S100000_S100000x1_0 (degreeScale ends)

/-- A bias made one row by a reshape is the bias row. -/
theorem reshape_bias128 (h : S128.ShapeCasts S1x128) (b1 : FVec Ideal S128 .f32) : shapeCast S1x128 b1 h = biasRow128 b1 :=
  DenseSteps.row_reshape_eq_broadcast (N := 128) h bcast_S128_S1x128_1 b1

theorem reshape_bias40 (h : S40.ShapeCasts S1x40) (b2 : FVec Ideal S40 .f32) : shapeCast S1x40 b2 h = biasRow40 b2 :=
  DenseSteps.row_reshape_eq_broadcast (N := 40) h bcast_S40_S1x40_1 b2

/-- The first layer's product is the scaled product of the features and weights by the source scaling. -/
theorem firstProduct_eq (x : FVec Ideal S100000x256 .f32) (src : Ends) (w1 : FVec Ideal S256x128 .f32) :
    DenseSteps.scaledProduct (n := 100000) (K := 256) (N := 128) x w1 (scaleColumn src) = firstProduct x src w1 :=
  (DenseSteps.host_scaledProduct (n := 100000) (K := 256) (N := 128) dot_S100000x256_S256x128_S100000x128_1_0_0_1_n_n rfl
    bcast_S100000x1_S100000x128_0_1 x w1 (scaleColumn src)).symm

/-- The hidden features are the first aggregate with the bias row added, clamped at zero. -/
theorem hidden_eq (x : FVec Ideal S100000x256 .f32) (src dst : Ends) (w1 : FVec Ideal S256x128 .f32) (b1 : FVec Ideal S128 .f32) :
    DenseSteps.biasedClamp (n := 100000) (K := 128) (firstAggregate x src dst w1) (biasRow128 b1) = hidden x src dst w1 b1 :=
  (DenseSteps.host_biasedClamp (n := 100000) (K := 128) bcast_S1x128_S100000x128_0_1 ![] bcast_S_S100000x128
    (firstAggregate x src dst w1) (biasRow128 b1)).symm

/-- The second layer's product is the scaled product of the hidden features and weights by the source scaling. -/
theorem secondProduct_eq (h : FVec Ideal S100000x128 .f32) (src : Ends) (w2 : FVec Ideal S128x40 .f32) :
    DenseSteps.scaledProduct (n := 100000) (K := 128) (N := 40) h w2 (scaleColumn src) = secondProduct h src w2 :=
  (DenseSteps.host_scaledProduct (n := 100000) (K := 128) (N := 40) dot_S100000x128_S128x40_S100000x40_1_0_0_1_n_n rfl
    bcast_S100000x1_S100000x40_0_1 h w2 (scaleColumn src)).symm

end Cert.ReferenceIdeal.Layers

end
-- ==== Proof.KernelEntry.lean ====
/-
  What the first launch is entered with.

  Before the first launch the program counts, for every node, the edges leaving it and the edges entering it (a
  scatter-add of ones along each edge list), takes each count at least one and its inverse square root, keeps the
  two scalings as columns [100000, 1] (a reshape), and views the two biases as rows (a reshape). The arguments are
  not written. The operations come in five stretches (the clamp at one is a called function, a stretch of its
  own each time), so each scaling is followed through them one stretch at a time, from whatever the stretch is
  entered with.
-/
import proofs.«173235_j30992484008171_2_alg».proof.Proof.KernelRun
import proofs.«173235_j30992484008171_2_alg».proof.Proof.RefLayers
import Idealize.ShloMosaic.Lib.StableHlo.Run

set_option maxRecDepth 16384

noncomputable section

namespace Cert.KernelIdeal.Entry

open Cert.KernelIdeal Cert.KernelIdeal.Gen
open Idealize.ShloMosaic Idealize.ShloMosaic.TcCoe Idealize.SL.Sem
open Cert.ReferenceIdeal.Layers (scaleColumn biasRow128 biasRow40)

/-! ## One stretch at a time, from any contents -/

section Stages

variable (V : Valuation τ sig (Elt Ideal))

/-- The first stretch counts the edges leaving each node … -/
theorem count_src : @Eq (FVec Ideal S100000 .f32) (StableHlo.after hostOps0 V (Proc.devRef .tc main_v3))
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0
        (V (Proc.devRef .tc main_arg1) : (⟨S1600000, .i32⟩ : BufTy).Contents (Elt Ideal)))
      (broadcastInDim S1600000 ![] bcast_S_S1600000 (constant (F := Ideal) S_ .f32 0x3F800000#32))) := by
  after_results_simp <;> rfl

/-- … and the edges entering it, -/
theorem count_dst : @Eq (FVec Ideal S100000 .f32) (StableHlo.after hostOps0 V (Proc.devRef .tc main_v6))
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0
        (V (Proc.devRef .tc main_arg2) : (⟨S1600000, .i32⟩ : BufTy).Contents (Elt Ideal)))
      (broadcastInDim S1600000 ![] bcast_S_S1600000 (constant (F := Ideal) S_ .f32 0x3F800000#32))) := by
  after_results_simp <;> rfl

/-- and writes the bound one. -/
theorem bound_src : @Eq (FVec Ideal S_ .f32) (StableHlo.after hostOps0 V (Proc.devRef .tc main_cst_2))
    (constant (F := Ideal) S_ .f32 0x3F800000#32) := by
  after_results_simp <;> rfl

/-- The second stretch takes the leaving count at least the bound, -/
theorem clamp_src : @Eq (FVec Ideal S100000 .f32) (StableHlo.after hostOps0_1 V (Proc.devRef .tc main_v7))
    (maximumf (broadcastInDim S100000 ![] bcast_S_S100000 (id (V (Proc.devRef .tc main_cst_2) : FVec Ideal S_ .f32)))
      (V (Proc.devRef .tc main_v3) : FVec Ideal S100000 .f32)) := by
  after_results_simp <;> rfl

/-- leaving the entering count as it was. -/
theorem clamp_src_keeps : StableHlo.after hostOps0_1 V (Proc.devRef .tc main_v6) = V (Proc.devRef .tc main_v6) := by
  after_results_simp <;> rfl

/-- The third stretch takes the inverse square root, -/
theorem rsqrt_src : @Eq (FVec Ideal S100000 .f32) (StableHlo.after hostOps0_2 V (Proc.devRef .tc main_v8))
    (Host.rsqrt (V (Proc.devRef .tc main_v7) : FVec Ideal S100000 .f32)) := by
  after_results_simp <;> rfl

/-- writes the bound one again, -/
theorem bound_dst : @Eq (FVec Ideal S_ .f32) (StableHlo.after hostOps0_2 V (Proc.devRef .tc main_cst_3))
    (constant (F := Ideal) S_ .f32 0x3F800000#32) := by
  after_results_simp <;> rfl

/-- and leaves the entering count as it was. -/
theorem rsqrt_src_keeps : StableHlo.after hostOps0_2 V (Proc.devRef .tc main_v6) = V (Proc.devRef .tc main_v6) := by
  after_results_simp <;> rfl

/-- The fourth stretch takes the entering count at least the bound, -/
theorem clamp_dst : @Eq (FVec Ideal S100000 .f32) (StableHlo.after hostOps0_3 V (Proc.devRef .tc main_v9))
    (maximumf (broadcastInDim S100000 ![] bcast_S_S100000 (id (V (Proc.devRef .tc main_cst_3) : FVec Ideal S_ .f32)))
      (V (Proc.devRef .tc main_v6) : FVec Ideal S100000 .f32)) := by
  after_results_simp <;> rfl

/-- leaving the source scaling as it was. -/
theorem clamp_dst_keeps : StableHlo.after hostOps0_3 V (Proc.devRef .tc main_v8) = V (Proc.devRef .tc main_v8) := by
  after_results_simp <;> rfl

/-- The fifth stretch keeps the source scaling as a column, -/
theorem column_src : @Eq (FVec Ideal S100000x1 .f32) (StableHlo.after hostOps0_4 V (Proc.devRef .tc main_v11))
    (shapeCast S100000x1 (V (Proc.devRef .tc main_v8) : FVec Ideal S100000 .f32) shapeCasts_S100000_S100000x1) := by
  after_results_simp <;> rfl

/-- and the inverse square root of the clamped entering count as a column. -/
theorem column_dst : @Eq (FVec Ideal S100000x1 .f32) (StableHlo.after hostOps0_4 V (Proc.devRef .tc main_v12))
    (shapeCast S100000x1 (Host.rsqrt (V (Proc.devRef .tc main_v9) : FVec Ideal S100000 .f32)) shapeCasts_S100000_S100000x1) := by
  after_results_simp <;> rfl

end Stages

/-! ## At the first launch's entry -/

variable (m : (ℓ : Loc nD τ sig) → Buf (Elt Ideal) ℓ) (ρ : Dev nD → PrngReg) (c : Dev nD)

theorem features : W5 m ρ c (Proc.devRef .tc main_arg0) = m ((c.tc : Thread nD τ).loc main_arg0) := by
  show StableHlo.after hostOps0_4 (StableHlo.after hostOps0_3 (StableHlo.after hostOps0_2 (StableHlo.after hostOps0_1
    (StableHlo.after hostOps0 (W0 m ρ c))))) (Proc.devRef .tc main_arg0) = _
  after_results_simp <;> rfl

theorem src : W5 m ρ c (Proc.devRef .tc main_arg1) = m ((c.tc : Thread nD τ).loc main_arg1) := by
  show StableHlo.after hostOps0_4 (StableHlo.after hostOps0_3 (StableHlo.after hostOps0_2 (StableHlo.after hostOps0_1
    (StableHlo.after hostOps0 (W0 m ρ c))))) (Proc.devRef .tc main_arg1) = _
  after_results_simp <;> rfl

theorem dst : W5 m ρ c (Proc.devRef .tc main_arg2) = m ((c.tc : Thread nD τ).loc main_arg2) := by
  show StableHlo.after hostOps0_4 (StableHlo.after hostOps0_3 (StableHlo.after hostOps0_2 (StableHlo.after hostOps0_1
    (StableHlo.after hostOps0 (W0 m ρ c))))) (Proc.devRef .tc main_arg2) = _
  after_results_simp <;> rfl

theorem weights1 : W5 m ρ c (Proc.devRef .tc main_arg3) = m ((c.tc : Thread nD τ).loc main_arg3) := by
  show StableHlo.after hostOps0_4 (StableHlo.after hostOps0_3 (StableHlo.after hostOps0_2 (StableHlo.after hostOps0_1
    (StableHlo.after hostOps0 (W0 m ρ c))))) (Proc.devRef .tc main_arg3) = _
  after_results_simp <;> rfl

theorem weights2 : W5 m ρ c (Proc.devRef .tc main_arg5) = m ((c.tc : Thread nD τ).loc main_arg5) := by
  show StableHlo.after hostOps0_4 (StableHlo.after hostOps0_3 (StableHlo.after hostOps0_2 (StableHlo.after hostOps0_1
    (StableHlo.after hostOps0 (W0 m ρ c))))) (Proc.devRef .tc main_arg5) = _
  after_results_simp <;> rfl

/-- The source scaling, kept as a column. -/
theorem srcScale : W5 m ρ c (Proc.devRef .tc main_v11) = scaleColumn (m ((c.tc : Thread nD τ).loc main_arg1)) := by
  refine (column_src (W4 m ρ c)).trans ?_
  rw [show W4 m ρ c (Proc.devRef .tc main_v8) = _ from clamp_dst_keeps (W3 m ρ c),
    show W3 m ρ c (Proc.devRef .tc main_v8) = _ from rsqrt_src (W2 m ρ c),
    show W2 m ρ c (Proc.devRef .tc main_v7) = _ from clamp_src (W1 m ρ c),
    show W1 m ρ c (Proc.devRef .tc main_cst_2) = _ from bound_src (W0 m ρ c),
    show W1 m ρ c (Proc.devRef .tc main_v3) = _ from count_src (W0 m ρ c),
    show W0 m ρ c (Proc.devRef .tc main_arg1) = m ((c.tc : Thread nD τ).loc main_arg1) from rfl]
  exact Cert.ReferenceIdeal.Layers.reshape_scale shapeCasts_S100000_S100000x1 _

/-- The destination scaling, kept as a column. -/
theorem dstScale : W5 m ρ c (Proc.devRef .tc main_v12) = scaleColumn (m ((c.tc : Thread nD τ).loc main_arg2)) := by
  refine (column_dst (W4 m ρ c)).trans ?_
  rw [show W4 m ρ c (Proc.devRef .tc main_v9) = _ from clamp_dst (W3 m ρ c),
    show W3 m ρ c (Proc.devRef .tc main_cst_3) = _ from bound_dst (W2 m ρ c),
    show W3 m ρ c (Proc.devRef .tc main_v6) = _ from rsqrt_src_keeps (W2 m ρ c),
    show W2 m ρ c (Proc.devRef .tc main_v6) = _ from clamp_src_keeps (W1 m ρ c),
    show W1 m ρ c (Proc.devRef .tc main_v6) = _ from count_dst (W0 m ρ c),
    show W0 m ρ c (Proc.devRef .tc main_arg2) = m ((c.tc : Thread nD τ).loc main_arg2) from rfl]
  exact Cert.ReferenceIdeal.Layers.reshape_scale shapeCasts_S100000_S100000x1 _

/-- The first bias as a row. -/
theorem bias1 : W5 m ρ c (Proc.devRef .tc main_v13) = biasRow128 (m ((c.tc : Thread nD τ).loc main_arg4)) := by
  refine Eq.trans ?_ (Cert.ReferenceIdeal.Layers.reshape_bias128 shapeCasts_S128_S1x128 _)
  show StableHlo.after hostOps0_4 (StableHlo.after hostOps0_3 (StableHlo.after hostOps0_2 (StableHlo.after hostOps0_1
    (StableHlo.after hostOps0 (W0 m ρ c))))) (Proc.devRef .tc main_v13) = _
  after_results_simp <;> rfl

/-- The second bias as a row. -/
theorem bias2 : W5 m ρ c (Proc.devRef .tc main_v14) = biasRow40 (m ((c.tc : Thread nD τ).loc main_arg6)) := by
  refine Eq.trans ?_ (Cert.ReferenceIdeal.Layers.reshape_bias40 shapeCasts_S40_S1x40 _)
  show StableHlo.after hostOps0_4 (StableHlo.after hostOps0_3 (StableHlo.after hostOps0_2 (StableHlo.after hostOps0_1
    (StableHlo.after hostOps0 (W0 m ρ c))))) (Proc.devRef .tc main_v14) = _
  after_results_simp <;> rfl

end Cert.KernelIdeal.Entry

end
-- ==== Proof.FirstLaunch.lean ====
/-
  The first launch's output array as one function of the arrays it is entered with.

  The launch walks 20 blocks of 5000 rows. At block t it reads rows 5000·t … 5000·t + 4999 of the features
  [100000, 256] and of the scaling column [100000, 1], the whole weight matrix [256, 128], and writes rows
  5000·t … of the output [100000, 128]: the block's rows times the weights, each row scaled by its entry of the
  column. Row r of the output therefore depends on row r of the features and of the column only, and the twenty
  blocks together are every row: the output array is the scaled product of the whole arrays.
-/
import proofs.«173235_j30992484008171_2_alg».proof.Proof.Gen.KernelIdeal.Frame
import proofs.«173235_j30992484008171_2_alg».proof.Proof.DenseSteps
import Idealize.ShloMosaic.Lib.Pipeline.Value
import Idealize.ShloMosaic.Lib.Tactic

set_option maxRecDepth 16384

noncomputable section

namespace Cert.KernelIdeal.FirstLaunch

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at (p, q): row p of the feature block times column q of the weights, scaled by the
    column block's entry p. -/
theorem stored_apply (x0 : Vec Ideal S5000x256 .f32) (x1 : Vec Ideal S256x128 .f32) (x2 : Vec Ideal S5000x1 .f32)
    (p : Fin 5000) (q : Fin 128) :
    k0_pay1 x0 x1 x2 (ix2 p q) = (∑ k : Fin 256, x0 (ix2 p k) * x1 (ix2 k q)) * x2 (ix2 p (0 : Fin 1)) := by
  unfold k0_pay1
  exact DenseSteps.block_scaledProduct dot_S5000x256_S256x128_S5000x128_1_0_0_1_n_n rfl bitsLt_bf16_f32
    shapeCasts_S5000x1_S5000x1 broadcasts_S5000x1_S5000x128 x0 x1 x2 p q

/-- Where each window's block sits at point t: the row blocks move with t, the weights stay. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature block at point t is rows 5000·t … of the feature array. -/
theorem features_block (c : Dev nD) (t : Fin cfg0.N) (y : S5000x256.Idx) (i : S100000x256.Idx)
    (h0 : (i 0).val = 5000 * t.val + (y 0).val) (h1 : (i 1).val = (y 1).val) :
    (iblk0 V c 0 t : Vec Ideal S5000x256 .f32) y = (V c main_arg0 : S100000x256.Idx → EReal) i := by
  obtain ⟨e0, e1, -⟩ := block_positions t
  unfold iblk0
  rw [View.read_apply]
  show V c main_arg0 _ = V c main_arg0 _
  congr 1
  funext a
  apply Fin.ext
  match a with
  | ⟨0, _⟩ => show win0_0.index t 0 * 5000 + 1 * (y 0).val = (i 0).val; rw [e0, h0]; omega
  | ⟨1, _⟩ => show win0_0.index t 1 * 256 + 1 * (y 1).val = (i 1).val; rw [e1, h1]; omega

/-- The weight block at every point is the weight array. -/
theorem weights_block (c : Dev nD) (t : Fin cfg0.N) (y : S256x128.Idx) (i : S256x128.Idx)
    (h0 : (i 0).val = (y 0).val) (h1 : (i 1).val = (y 1).val) :
    (iblk0 V c 1 t : Vec Ideal S256x128 .f32) y = (V c main_arg3 : S256x128.Idx → EReal) i := by
  obtain ⟨-, -, e0, e1, -⟩ := block_positions t
  unfold iblk0
  rw [View.read_apply]
  show V c main_arg3 _ = V c main_arg3 _
  congr 1
  funext a
  apply Fin.ext
  match a with
  | ⟨0, _⟩ => show win0_1.index t 0 * 256 + 1 * (y 0).val = (i 0).val; rw [e0, h0]; omega
  | ⟨1, _⟩ => show win0_1.index t 1 * 128 + 1 * (y 1).val = (i 1).val; rw [e1, h1]; omega

/-- The column block at point t is rows 5000·t … of the scaling column. -/
theorem column_block (c : Dev nD) (t : Fin cfg0.N) (y : S5000x1.Idx) (i : S100000x1.Idx)
    (h0 : (i 0).val = 5000 * t.val + (y 0).val) (h1 : (i 1).val = (y 1).val) :
    (iblk0 V c 2 t : Vec Ideal S5000x1 .f32) y = (V c main_v11 : S100000x1.Idx → EReal) i := by
  obtain ⟨-, -, -, -, e0, e1, -⟩ := block_positions t
  unfold iblk0
  rw [View.read_apply]
  show V c main_v11 _ = V c main_v11 _
  congr 1
  funext a
  apply Fin.ext
  match a with
  | ⟨0, _⟩ => show win0_2.index t 0 * 5000 + 1 * (y 0).val = (i 0).val; rw [e0, h0]; omega
  | ⟨1, _⟩ => show win0_2.index t 1 * 1 + 1 * (y 1).val = (i 1).val; rw [e1, h1]; omega

/-- The whole output: the scaled product of the arrays the launch is entered with. -/
abbrev output (c : Dev nD) : S100000x128.Idx → EReal :=
  DenseSteps.scaledProduct (n := 100000) (K := 256) (N := 128) (V c main_arg0) (V c main_arg3) (V c main_v11)

/-- What point t writes back is its block of `output`. -/
theorem flushed_eq (c : Dev nD) (t : Fin cfg0.N) :
    (dat0 V c).flushed 3 t = ((cfg0.win 3).blk t).view.read (Elt Ideal) (output V c) := by
  show (cfg0.win 3).cut (grid0.coords t) ((dat0 V c).after 3 t) = _
  rw [after0_3]
  unfold out0_3
  rw [View.canon_unit_zero zero_offsets]
  simp only [View.ld_unit_zero (S := S5000x256) zero_offsets, View.ld_unit_zero (S := S256x128) zero_offsets,
    View.ld_unit_zero (S := S5000x1) zero_offsets]
  obtain ⟨-, -, -, -, -, -, e0, e1⟩ := block_positions t
  funext j
  show k0_pay1 (iblk0 V c 0 t) (iblk0 V c 1 t) (iblk0 V c 2 t) j = output V c (((cfg0.win 3).blk t).view.emb j)
  have hr : ((((cfg0.win 3).blk t).view.emb j) 0).val = 5000 * t.val + (j 0).val := by
    show win0_3.index t 0 * 5000 + 1 * (j 0).val = _; rw [e0]; omega
  have hq : ((((cfg0.win 3).blk t).view.emb j) 1).val = (j 1).val := by
    show win0_3.index t 1 * 128 + 1 * (j 1).val = _; rw [e1]; omega
  refine ((congrArg (k0_pay1 (iblk0 V c 0 t) (iblk0 V c 1 t) (iblk0 V c 2 t)) (eq_ix2 (n0 := 5000) (n1 := 128) j)).trans
    (stored_apply (iblk0 V c 0 t) (iblk0 V c 1 t) (iblk0 V c 2 t) (j 0) (j 1))).trans ?_
  show _ = (∑ k : Fin 256, (_ : EReal) * (_ : EReal)) * (_ : EReal)
  exact congrArg₂ (· * ·)
    (Finset.sum_congr rfl fun k _ => congrArg₂ (· * ·)
      (features_block V c t (ix2 (j 0) k) (ix2 ((((cfg0.win 3).blk t).view.emb j) 0) k) hr rfl)
      (weights_block V c t (ix2 k (j 1)) (ix2 k ((((cfg0.win 3).blk t).view.emb j) 1)) rfl hq))
    (column_block V c t (ix2 (j 0) (0 : Fin 1)) (ix2 ((((cfg0.win 3).blk t).view.emb j) 0) (0 : Fin 1)) hr rfl)

/-- An index of the output array is in point t's block iff each coordinate is in the block's range. -/
theorem mem_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v15).slice (win0_3.rect t)).set ↔ _
  rw [View.set_slice_whole, Rect.mem_set_unit]
  exact Iff.rfl

/-- Every row lies in the block of the point r / 5000. -/
theorem covered (i : S100000x128.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 128 := (i 1).isLt
  refine ⟨⟨(i 0).val / 5000, by rw [hN]; omega⟩, flush0_3 _, ?_⟩
  rw [mem_block]
  obtain ⟨-, -, -, -, -, -, e0, e1⟩ := block_positions ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e1]; omega

/-- The output array after the launch is the scaled product of the arrays it was entered with. -/
theorem array_eq (c : Dev nD) : (dat0 V c).arrAt 3 cfg0.N = output V c :=
  (dat0 V c).arrAt_eq_of_cover 3 (output V c) (fun t _ => flushed_eq V c t) covered

end Cert.KernelIdeal.FirstLaunch

end
-- ==== Proof.SecondLaunch.lean ====
/-
  The second launch's output array as one function of the arrays it is entered with.

  The launch walks 20 blocks of 5000 rows. At block t it reads rows 5000·t … of the aggregated features
  [100000, 128] and of the scaling column [100000, 1], the whole bias row [1, 128] and the whole weight matrix
  [128, 40]. It adds the bias row to every row of the block, clamps below at zero, multiplies by the weights and
  scales each row by its entry of the column, writing rows 5000·t … of the output [100000, 40]. Row r of the output
  depends on row r of the two row-blocked arrays only, and the twenty blocks together are every row: the output
  array is the scaled product of the biased, clamped whole array.
-/
import proofs.«173235_j30992484008171_2_alg».proof.Proof.Gen.KernelIdeal.Frame
import proofs.«173235_j30992484008171_2_alg».proof.Proof.DenseSteps
import Idealize.ShloMosaic.Lib.Pipeline.Value
import Idealize.ShloMosaic.Lib.Tactic

set_option maxRecDepth 16384

noncomputable section

namespace Cert.KernelIdeal.SecondLaunch

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at (p, q): row p of the block with the bias row added and clamped at zero, times
    column q of the weights, scaled by the column block's entry p. -/
theorem stored_apply (x0 : Vec Ideal S5000x128 .f32) (x1 : Vec Ideal S1x128 .f32) (x2 : Vec Ideal S128x40 .f32)
    (x3 : Vec Ideal S5000x1 .f32) (p : Fin 5000) (q : Fin 40) :
    k1_pay1 x0 x1 x2 x3 (ix2 p q)
      = (∑ k : Fin 128, max (x0 (ix2 p k) + x1 (ix2 (0 : Fin 1) k)) (Ideal.ofBits .f32 0x00000000#32) * x2 (ix2 k q))
          * x3 (ix2 p (0 : Fin 1)) := by
  unfold k1_pay1
  refine (DenseSteps.block_scaledProduct dot_S5000x128_S128x40_S5000x40_1_0_0_1_n_n rfl bitsLt_bf16_f32
    shapeCasts_S5000x1_S5000x1 broadcasts_S5000x1_S5000x40 _ x2 x3 p q).trans ?_
  exact congrArg (· * x3 (ix2 p (0 : Fin 1))) (Finset.sum_congr rfl fun k _ =>
    congrArg (· * x2 (ix2 k q)) (DenseSteps.block_biasedClamp shapeCasts_S5000x128_S5000x128 shapeCasts_S1x128_S1x128
      broadcasts_S1x128_S5000x128 x0 x1 p k))

/-- Where each window's block sits at point t: the row blocks move with t, the bias row and the weights stay. -/
theorem block_positions : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The block of aggregated features at point t is rows 5000·t … of their array. -/
theorem rows_block (c : Dev nD) (t : Fin cfg1.N) (y : S5000x128.Idx) (i : S100000x128.Idx)
    (h0 : (i 0).val = 5000 * t.val + (y 0).val) (h1 : (i 1).val = (y 1).val) :
    (iblk1 V c 0 t : Vec Ideal S5000x128 .f32) y = (V c main_v28 : S100000x128.Idx → EReal) i := by
  obtain ⟨e0, e1, -⟩ := block_positions t
  unfold iblk1
  rw [View.read_apply]
  show V c main_v28 _ = V c main_v28 _
  congr 1
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- The bias block at every point is the bias row. -/
theorem bias_block (c : Dev nD) (t : Fin cfg1.N) (y : S1x128.Idx) (i : S1x128.Idx)
    (h0 : (i 0).val = (y 0).val) (h1 : (i 1).val = (y 1).val) :
    (iblk1 V c 1 t : Vec Ideal S1x128 .f32) y = (V c main_v13 : S1x128.Idx → EReal) i := by
  obtain ⟨-, -, e0, e1, -⟩ := block_positions t
  unfold iblk1
  rw [View.read_apply]
  show V c main_v13 _ = V c main_v13 _
  congr 1
  funext a
  apply Fin.ext
  match a with
  | ⟨0, _⟩ => show win1_1.index t 0 * 1 + 1 * (y 0).val = (i 0).val; rw [e0, h0]; omega
  | ⟨1, _⟩ => show win1_1.index t 1 * 128 + 1 * (y 1).val = (i 1).val; rw [e1, h1]; omega

/-- The weight block at every point is the weight array. -/
theorem weights_block (c : Dev nD) (t : Fin cfg1.N) (y : S128x40.Idx) (i : S128x40.Idx)
    (h0 : (i 0).val = (y 0).val) (h1 : (i 1).val = (y 1).val) :
    (iblk1 V c 2 t : Vec Ideal S128x40 .f32) y = (V c main_arg5 : S128x40.Idx → EReal) i := by
  obtain ⟨-, -, -, -, e0, e1, -⟩ := block_positions t
  unfold iblk1
  rw [View.read_apply]
  show V c main_arg5 _ = V c main_arg5 _
  congr 1
  funext a
  apply Fin.ext
  match a with
  | ⟨0, _⟩ => show win1_2.index t 0 * 128 + 1 * (y 0).val = (i 0).val; rw [e0, h0]; omega
  | ⟨1, _⟩ => show win1_2.index t 1 * 40 + 1 * (y 1).val = (i 1).val; rw [e1, h1]; omega

/-- The column block at point t is rows 5000·t … of the scaling column. -/
theorem column_block (c : Dev nD) (t : Fin cfg1.N) (y : S5000x1.Idx) (i : S100000x1.Idx)
    (h0 : (i 0).val = 5000 * t.val + (y 0).val) (h1 : (i 1).val = (y 1).val) :
    (iblk1 V c 3 t : Vec Ideal S5000x1 .f32) y = (V c main_v11 : S100000x1.Idx → EReal) i := by
  obtain ⟨-, -, -, -, -, -, e0, e1, -⟩ := block_positions t
  unfold iblk1
  rw [View.read_apply]
  show V c main_v11 _ = V c main_v11 _
  congr 1
  funext a
  apply Fin.ext
  match a with
  | ⟨0, _⟩ => show win1_3.index t 0 * 5000 + 1 * (y 0).val = (i 0).val; rw [e0, h0]; omega
  | ⟨1, _⟩ => show win1_3.index t 1 * 1 + 1 * (y 1).val = (i 1).val; rw [e1, h1]; omega

/-- The whole output: the scaled product of the biased, clamped array the launch is entered with. -/
abbrev output (c : Dev nD) : S100000x40.Idx → EReal :=
  DenseSteps.scaledProduct (n := 100000) (K := 128) (N := 40)
    (DenseSteps.biasedClamp (n := 100000) (K := 128) (V c main_v28) (V c main_v13)) (V c main_arg5) (V c main_v11)

/-- What point t writes back is its block of `output`. -/
theorem flushed_eq (c : Dev nD) (t : Fin cfg1.N) :
    (dat1 V c).flushed 4 t = ((cfg1.win 4).blk t).view.read (Elt Ideal) (output V c) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S1x128) zero_offsets,
    View.ld_unit_zero (S := S128x40) zero_offsets, View.ld_unit_zero (S := S5000x1) zero_offsets]
  obtain ⟨-, -, -, -, -, -, -, -, e0, e1⟩ := block_positions t
  funext j
  show k1_pay1 (iblk1 V c 0 t) (iblk1 V c 1 t) (iblk1 V c 2 t) (iblk1 V c 3 t) j
    = output V c (((cfg1.win 4).blk t).view.emb j)
  have hr : ((((cfg1.win 4).blk t).view.emb j) 0).val = 5000 * t.val + (j 0).val := by
    show win1_4.index t 0 * 5000 + 1 * (j 0).val = _; rw [e0]; omega
  have hq : ((((cfg1.win 4).blk t).view.emb j) 1).val = (j 1).val := by
    show win1_4.index t 1 * 40 + 1 * (j 1).val = _; rw [e1]; omega
  refine ((congrArg (k1_pay1 (iblk1 V c 0 t) (iblk1 V c 1 t) (iblk1 V c 2 t) (iblk1 V c 3 t))
      (eq_ix2 (n0 := 5000) (n1 := 40) j)).trans
    (stored_apply (iblk1 V c 0 t) (iblk1 V c 1 t) (iblk1 V c 2 t) (iblk1 V c 3 t) (j 0) (j 1))).trans ?_
  show _ = (∑ k : Fin 128, max ((_ : EReal) + (_ : EReal)) (_ : EReal) * (_ : EReal)) * (_ : EReal)
  exact congrArg₂ (· * ·)
    (Finset.sum_congr rfl fun k _ => congrArg₂ (· * ·)
      (congrArg₂ (fun a b : EReal => max (a + b) (Ideal.ofBits .f32 0x00000000#32))
        (rows_block V c t (ix2 (j 0) k) (ix2 ((((cfg1.win 4).blk t).view.emb j) 0) k) hr rfl)
        (bias_block V c t (ix2 (0 : Fin 1) k) (ix2 (0 : Fin 1) k) rfl rfl))
      (weights_block V c t (ix2 k (j 1)) (ix2 k ((((cfg1.win 4).blk t).view.emb j) 1)) rfl hq))
    (column_block V c t (ix2 (j 0) (0 : Fin 1)) (ix2 ((((cfg1.win 4).blk t).view.emb j) 0) (0 : Fin 1)) hr rfl)

/-- An index of the output array is in point t's block iff each coordinate is in the block's range. -/
theorem mem_block (t : Fin cfg1.N) (i : S100000x40.Idx) :
    i ∈ ((cfg1.win 4).blk t).view.set ↔ ∀ a : Fin 2, win1_4.index t a * S5000x40.size a ≤ (i a).val
      ∧ (i a).val < win1_4.index t a * S5000x40.size a + S5000x40.size a := by
  show i ∈ ((View.whole main_v29).slice (win1_4.rect t)).set ↔ _
  rw [View.set_slice_whole, Rect.mem_set_unit]
  exact Iff.rfl

/-- Every row lies in the block of the point r / 5000. -/
theorem covered (i : S100000x40.Idx) :
    ∃ t : Fin cfg1.N, (cfg1.win 4).flush t = true ∧ i ∈ ((cfg1.win 4).blk t).view.set := by
  have hN : cfg1.N = 20 := N_1
  have hi0 : (i 0).val < 100000 := (i 0).isLt
  have hi1 : (i 1).val < 40 := (i 1).isLt
  refine ⟨⟨(i 0).val / 5000, by rw [hN]; omega⟩, flush1_4 _, ?_⟩
  rw [mem_block]
  obtain ⟨-, -, -, -, -, -, -, -, e0, e1⟩ := block_positions ⟨(i 0).val / 5000, by rw [hN]; omega⟩
  intro a
  match a with
  | ⟨0, _⟩ =>
    show win1_4.index _ (0 : Fin 2) * 5000 ≤ (i 0).val ∧ (i 0).val < win1_4.index _ (0 : Fin 2) * 5000 + 5000
    rw [e0]; show (i 0).val / 5000 * 5000 ≤ (i 0).val ∧ (i 0).val < (i 0).val / 5000 * 5000 + 5000; omega
  | ⟨1, _⟩ =>
    show win1_4.index _ (1 : Fin 2) * 40 ≤ (i 1).val ∧ (i 1).val < win1_4.index _ (1 : Fin 2) * 40 + 40
    rw [e1]; omega

/-- The output array after the launch is the scaled product of the biased, clamped array it was entered with. -/
theorem array_eq (c : Dev nD) : (dat1 V c).arrAt 4 cfg1.N = output V c :=
  (dat1 V c).arrAt_eq_of_cover 4 (output V c) (fun t _ => flushed_eq V c t) covered

end Cert.KernelIdeal.SecondLaunch

end
-- ==== Proof.KernelValue.lean ====
/-
  The idealized kernel's result as a function of its arguments.

  The run leaves the result buffer at the contents found by following every buffer through the program: five
  stretches of host operations, the first launch, a stretch, the second launch, a last stretch. Read in order:

    before the first launch   the two degree scalings are computed and kept as columns (by a reshape), the two
                              biases are viewed as rows (by a reshape);
    the first launch          writes the features times the first weights, rows scaled by the source scaling;
    the next stretch          carries rows along the edges and scales by the destination scaling;
    the second launch         adds the first bias, clamps at zero, multiplies by the second weights and scales
                              rows by the source scaling;
    the last stretch          carries rows along the edges, scales by the destination scaling, adds the second
                              bias.

  The host stretches are the reference's own operations (the kernel's gathered rows pass through a change of float
  format, the identity over the extended reals), and each launch's output is the matching dense step of the
  reference on whole arrays. So the result is the reference's output of the same arguments.
-/
import proofs.«173235_j30992484008171_2_alg».proof.Proof.KernelRun
import proofs.«173235_j30992484008171_2_alg».proof.Proof.KernelEntry
import proofs.«173235_j30992484008171_2_alg».proof.Proof.FirstLaunch
import proofs.«173235_j30992484008171_2_alg».proof.Proof.SecondLaunch
import proofs.«173235_j30992484008171_2_alg».proof.Proof.RefLayers
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.SL.Sem
open Cert.ReferenceIdeal.Layers (scaleColumn biasRow128 biasRow40 hop128 hop40 firstProduct firstAggregate hidden
  secondProduct closing)

variable (m : (ℓ : Loc nD τ sig) → Buf (Elt Ideal) ℓ) (ρ : Dev nD → PrngReg) (c : Dev nD)

/-! ## After the first launch -/

/-- The first launch's output is the first layer's product. -/
theorem first_output : W6 m ρ c (Proc.devRef .tc main_v15)
    = firstProduct (m ((c.tc : Thread nD τ).loc main_arg0)) (m ((c.tc : Thread nD τ).loc main_arg1))
        (m ((c.tc : Thread nD τ).loc main_arg3)) := by
  refine (W6_arr m ρ c 3).trans ((FirstLaunch.array_eq (V5 m ρ) c).trans ?_)
  show DenseSteps.scaledProduct (n := 100000) (K := 256) (N := 128) (W5 m ρ c (Proc.devRef .tc main_arg0))
    (W5 m ρ c (Proc.devRef .tc main_arg3)) (W5 m ρ c (Proc.devRef .tc main_v11)) = _
  rw [Entry.features, Entry.weights1, Entry.srcScale]
  exact Cert.ReferenceIdeal.Layers.firstProduct_eq _ _ _

theorem after1_src : W6 m ρ c (Proc.devRef .tc main_arg1) = m ((c.tc : Thread nD τ).loc main_arg1) :=
  (W6_of_ne m ρ c main_arg1 (by decide)).trans (Entry.src m ρ c)
theorem after1_dst : W6 m ρ c (Proc.devRef .tc main_arg2) = m ((c.tc : Thread nD τ).loc main_arg2) :=
  (W6_of_ne m ρ c main_arg2 (by decide)).trans (Entry.dst m ρ c)
theorem after1_weights2 : W6 m ρ c (Proc.devRef .tc main_arg5) = m ((c.tc : Thread nD τ).loc main_arg5) :=
  (W6_of_ne m ρ c main_arg5 (by decide)).trans (Entry.weights2 m ρ c)
theorem after1_srcScale : W6 m ρ c (Proc.devRef .tc main_v11) = scaleColumn (m ((c.tc : Thread nD τ).loc main_arg1)) :=
  ((W6_arr m ρ c 2).trans (((dat0 (V5 m ρ) c).arrAt_in 2 rfl _).trans (A_eq0 (V5 m ρ) c 2))).trans (Entry.srcScale m ρ c)
theorem after1_dstScale : W6 m ρ c (Proc.devRef .tc main_v12) = scaleColumn (m ((c.tc : Thread nD τ).loc main_arg2)) :=
  (W6_of_ne m ρ c main_v12 (by decide)).trans (Entry.dstScale m ρ c)
theorem after1_bias1 : W6 m ρ c (Proc.devRef .tc main_v13) = biasRow128 (m ((c.tc : Thread nD τ).loc main_arg4)) :=
  (W6_of_ne m ρ c main_v13 (by decide)).trans (Entry.bias1 m ρ c)
theorem after1_bias2 : W6 m ρ c (Proc.devRef .tc main_v14) = biasRow40 (m ((c.tc : Thread nD τ).loc main_arg6)) :=
  (W6_of_ne m ρ c main_v14 (by decide)).trans (Entry.bias2 m ρ c)

/-! ## Before the second launch -/

/-- The stretch between the launches carries the first product along the edges and scales by the destination
    scaling: the first layer's aggregate. -/
theorem entry2_aggregate : W7 m ρ c (Proc.devRef .tc main_v28)
    = firstAggregate (m ((c.tc : Thread nD τ).loc main_arg0)) (m ((c.tc : Thread nD τ).loc main_arg1))
        (m ((c.tc : Thread nD τ).loc main_arg2)) (m ((c.tc : Thread nD τ).loc main_arg3)) := by
  have h : W7 m ρ c (Proc.devRef .tc main_v28)
      = mulf (hop128 (W6 m ρ c (Proc.devRef .tc main_v15)) (W6 m ρ c (Proc.devRef .tc main_arg1))
            (W6 m ρ c (Proc.devRef .tc main_arg2)))
          (broadcastInDim Cert.ReferenceIdeal.S100000x128 ![0, 1] Cert.ReferenceIdeal.Facts₀.bcast_S100000x1_S100000x128_0_1
            (W6 m ρ c (Proc.devRef .tc main_v12))) := by
    show StableHlo.after hostOps1 (W6 m ρ c) (Proc.devRef .tc main_v28) = _
    after_results_simp <;> rfl
  rw [h, first_output, after1_src, after1_dst, after1_dstScale]
  rfl

theorem entry2_src : W7 m ρ c (Proc.devRef .tc main_arg1) = m ((c.tc : Thread nD τ).loc main_arg1) := by
  refine Eq.trans ?_ (after1_src m ρ c)
  show StableHlo.after hostOps1 (W6 m ρ c) (Proc.devRef .tc main_arg1) = _
  after_results_simp <;> rfl
theorem entry2_dst : W7 m ρ c (Proc.devRef .tc main_arg2) = m ((c.tc : Thread nD τ).loc main_arg2) := by
  refine Eq.trans ?_ (after1_dst m ρ c)
  show StableHlo.after hostOps1 (W6 m ρ c) (Proc.devRef .tc main_arg2) = _
  after_results_simp <;> rfl
theorem entry2_weights2 : W7 m ρ c (Proc.devRef .tc main_arg5) = m ((c.tc : Thread nD τ).loc main_arg5) := by
  refine Eq.trans ?_ (after1_weights2 m ρ c)
  show StableHlo.after hostOps1 (W6 m ρ c) (Proc.devRef .tc main_arg5) = _
  after_results_simp <;> rfl
theorem entry2_srcScale : W7 m ρ c (Proc.devRef .tc main_v11) = scaleColumn (m ((c.tc : Thread nD τ).loc main_arg1)) := by
  refine Eq.trans ?_ (after1_srcScale m ρ c)
  show StableHlo.after hostOps1 (W6 m ρ c) (Proc.devRef .tc main_v11) = _
  after_results_simp <;> rfl
theorem entry2_dstScale : W7 m ρ c (Proc.devRef .tc main_v12) = scaleColumn (m ((c.tc : Thread nD τ).loc main_arg2)) := by
  refine Eq.trans ?_ (after1_dstScale m ρ c)
  show StableHlo.after hostOps1 (W6 m ρ c) (Proc.devRef .tc main_v12) = _
  after_results_simp <;> rfl
theorem entry2_bias1 : W7 m ρ c (Proc.devRef .tc main_v13) = biasRow128 (m ((c.tc : Thread nD τ).loc main_arg4)) := by
  refine Eq.trans ?_ (after1_bias1 m ρ c)
  show StableHlo.after hostOps1 (W6 m ρ c) (Proc.devRef .tc main_v13) = _
  after_results_simp <;> rfl
theorem entry2_bias2 : W7 m ρ c (Proc.devRef .tc main_v14) = biasRow40 (m ((c.tc : Thread nD τ).loc main_arg6)) := by
  refine Eq.trans ?_ (after1_bias2 m ρ c)
  show StableHlo.after hostOps1 (W6 m ρ c) (Proc.devRef .tc main_v14) = _
  after_results_simp <;> rfl

/-! ## After the second launch -/

/-- The second launch's output is the second layer's product of the hidden features. -/
theorem second_output : W8 m ρ c (Proc.devRef .tc main_v29)
    = secondProduct (hidden (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)))
        (m ((c.tc : Thread nD τ).loc main_arg1)) (m ((c.tc : Thread nD τ).loc main_arg5)) := by
  refine (W8_arr m ρ c 4).trans ((SecondLaunch.array_eq (V7 m ρ) c).trans ?_)
  show DenseSteps.scaledProduct (n := 100000) (K := 128) (N := 40)
    (DenseSteps.biasedClamp (n := 100000) (K := 128) (W7 m ρ c (Proc.devRef .tc main_v28)) (W7 m ρ c (Proc.devRef .tc main_v13)))
    (W7 m ρ c (Proc.devRef .tc main_arg5)) (W7 m ρ c (Proc.devRef .tc main_v11)) = _
  rw [entry2_aggregate, entry2_bias1, entry2_weights2, entry2_srcScale, Cert.ReferenceIdeal.Layers.hidden_eq]
  exact Cert.ReferenceIdeal.Layers.secondProduct_eq _ _ _

theorem after2_src : W8 m ρ c (Proc.devRef .tc main_arg1) = m ((c.tc : Thread nD τ).loc main_arg1) :=
  (W8_of_ne m ρ c main_arg1 (by decide)).trans (entry2_src m ρ c)
theorem after2_dst : W8 m ρ c (Proc.devRef .tc main_arg2) = m ((c.tc : Thread nD τ).loc main_arg2) :=
  (W8_of_ne m ρ c main_arg2 (by decide)).trans (entry2_dst m ρ c)
theorem after2_dstScale : W8 m ρ c (Proc.devRef .tc main_v12) = scaleColumn (m ((c.tc : Thread nD τ).loc main_arg2)) :=
  (W8_of_ne m ρ c main_v12 (by decide)).trans (entry2_dstScale m ρ c)
theorem after2_bias2 : W8 m ρ c (Proc.devRef .tc main_v14) = biasRow40 (m ((c.tc : Thread nD τ).loc main_arg6)) :=
  (W8_of_ne m ρ c main_v14 (by decide)).trans (entry2_bias2 m ρ c)

/-! ## The result -/

/-- The result buffer ends at the reference's output of the arguments. -/
theorem result : W9 m ρ c (Proc.devRef .tc main_v44)
    = Cert.ReferenceIdeal.Layers.output (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) := by
  have h : W9 m ρ c (Proc.devRef .tc main_v44)
      = addf (mulf (hop40 (W8 m ρ c (Proc.devRef .tc main_v29)) (W8 m ρ c (Proc.devRef .tc main_arg1))
            (W8 m ρ c (Proc.devRef .tc main_arg2)))
          (broadcastInDim Cert.ReferenceIdeal.S100000x40 ![0, 1] Cert.ReferenceIdeal.Facts₀.bcast_S100000x1_S100000x40_0_1
            (W8 m ρ c (Proc.devRef .tc main_v12))))
        (broadcastInDim Cert.ReferenceIdeal.S100000x40 ![0, 1] Cert.ReferenceIdeal.Facts₀.bcast_S1x40_S100000x40_0_1
          (W8 m ρ c (Proc.devRef .tc main_v14))) := by
    show StableHlo.after hostOps2 (W8 m ρ c) (Proc.devRef .tc main_v44) = _
    after_results_simp <;> rfl
  rw [h, second_output, after2_src, after2_dst, after2_dstScale, after2_bias2]
  rfl

/-- The kernel's run with its result at the reference's output of the arguments. -/
theorem run : θ_run defs (onTc (τ := τ) (main (F := Ideal))) ⟨m, fun _ => 0, ρ⟩ (fun r => ∀ c : Dev nD,
      r.2.mem ((c.tc : Thread nD τ).loc main_v44)
        = Cert.ReferenceIdeal.Layers.output (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (result m ρ c), (h c).2⟩) (Cert.KernelIdeal.Run.run_main (F := Ideal) m ρ)

end Cert.KernelIdeal.Result

end
-- ==== Proof.lean ====
/-
  A two-layer graph convolution on 100,000 nodes and 1,600,000 edges: the kernel program against its jnp reference.

  Both programs compute, from node features X, edge lists (src, dst) and two layers' weights and biases,

      s = 1/sqrt(max(1, out-degree)),  d = 1/sqrt(max(1, in-degree)),
      H = max(hop((X·W1)·s)·d + b1, 0),      out = hop((H·W2)·s)·d + b2,

  where hop carries each edge's source row to its destination and adds the rows arriving at a node. The reference
  does everything with host operations. The kernel program does the two dense steps — (X·W1)·s, and
  (max(A + b1, 0)·W2)·s for the aggregate A — in two launches over 20 blocks of 5000 rows, with a change of float
  format before each product and after each step; over the extended reals a change of format is the identity, a
  product on the matrix unit into zeros is the sum of products, and a block of rows of a row-wise function is the
  function of the block of rows. The remaining host operations are the reference's own. So both results are one
  function of the arguments (Proof/RefLayers.lean `output`): no law of arithmetic beyond the definitions is used,
  and the precondition (finite inputs) is not needed.

  The three frames are the generated ones (the reference's is its generated run with the result dropped); the
  idealization rewrote nothing, so `preserves` is trivial; `algebraic` joins the kernel's run
  (Proof/KernelValue.lean) and the reference's generated run at `output` of arguments that agree.
-/
import proofs.«173235_j30992484008171_2_alg».proof.Defs
import proofs.«173235_j30992484008171_2_alg».proof.Proof.Gen.Kernel
import proofs.«173235_j30992484008171_2_alg».proof.Proof.Gen.Kernel.Frame
import proofs.«173235_j30992484008171_2_alg».proof.Proof.Gen.KernelIdeal
import proofs.«173235_j30992484008171_2_alg».proof.Proof.Gen.KernelIdeal.Frame
import proofs.«173235_j30992484008171_2_alg».proof.Proof.Gen.ReferenceIdeal
import proofs.«173235_j30992484008171_2_alg».proof.Proof.Gen.ReferenceIdeal.Run
import proofs.«173235_j30992484008171_2_alg».proof.Proof.Gen.Pre_finite_inputs
import proofs.«173235_j30992484008171_2_alg».proof.Proof.KernelValue
import proofs.«173235_j30992484008171_2_alg».proof.Proof.RefLayers
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `output` of the arguments, and the arguments agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Layers.result_eq, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
